-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S1 : Shape := ⟨1, ![1]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_v8 : IVec S_ 1) (main_v10 : FVec F S1 .f32) (main_v15 : FVec F S1 .f32) (main_cst_5 : FVec F S_ .f32) : IVec S_ 1 :=
  let main_v16 : FVec F S1 .f32 := broadcastInDim S1 ![] bcast_S_S1 main_cst_5
  let main_v17 : FVec F S1 .f32 := addf main_v15 main_v16
  let main_cst_6 : FVec F S_ .f32 := constant S_ .f32 0xC0000000#32
  let main_v18 : FVec F S1 .f32 := broadcastInDim S1 ![] bcast_S_S1 main_cst_6
  let main_v19 : FVec F S1 .f32 := mulf main_v18 main_v10
  let main_v20 : FVec F S1 .f32 := Host.exp main_v19
  let main_v21 : FVec F S1 .f32 := mulf main_v17 main_v20
  let main_cst_7 : FVec F S_ .f32 := constant S_ .f32 0x00000000#32
  let main_v22 : FVec F S1 .f32 := broadcastInDim S1 ![] bcast_S_S1 main_cst_7
  let main_v23 : IVec S1 1 := cmpf .une main_v21 main_v22
  let main_c_8 : IVec S_ 1 := constantI S_ 1 1#1
  let main_v24 : IVec S_ 1 := (fun x v => Host.reduce IntOp.andi x v reducesTo_S1_S_d0 h_S_) main_v23 main_c_8
  let main_v25 : IVec S_ 1 := andi main_v8 main_v24
  main_v25

def fn {F : FTy → Type} [FloatOps F] (main_arg0 : FVec F S131072x512 .f32) (main_arg1 : FVec F S1 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_cst_2 : FVec F S_ .f32 := constant S_ .f32 0x3F800000#32
  let main_v9 : FVec F S1 .f32 := broadcastInDim S1 ![] bcast_S_S1 main_cst_2
  let main_v10 : FVec F S1 .f32 := subf main_v9 main_arg1
  let main_cst_3 : FVec F S_ .f32 := constant S_ .f32 0x40000000#32
  let main_v11 : FVec F S1 .f32 := broadcastInDim S1 ![] bcast_S_S1 main_cst_3
  let main_v12 : FVec F S1 .f32 := mulf main_v11 main_v10
  let main_v13 : FVec F S1 .f32 := Host.exp main_v12
  let main_cst_4 : FVec F S_ .f32 := constant S_ .f32 0xBF800000#32
  let main_v14 : FVec F S1 .f32 := broadcastInDim S1 ![] bcast_S_S1 main_cst_4
  let main_v15 : FVec F S1 .f32 := addf main_v14 main_v13
  let main_cst_5 : FVec F S_ .f32 := constant S_ .f32 0x3E800000#32
  fn_part1 (F := F) main_v8 main_v10 main_v15 main_cst_5
-- ==== Kernel.lean ====
abbrev S131072x512 : Shape := ⟨2, ![131072, 512]⟩
abbrev S1 : Shape := ⟨1, ![1]⟩
abbrev S_ : Shape := ⟨0, ![]⟩
abbrev S1x1 : Shape := ⟨2, ![1, 1]⟩
abbrev S4096x512 : Shape := ⟨2, ![4096, 512]⟩
abbrev S131072x1 : Shape := ⟨2, ![131072, 1]⟩

abbrev nBuf : Space → Nat
  | .hbm => 47
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S1, .f32⟩
  | .hbm, ⟨2, _⟩ => ⟨S_, .f32⟩
  | .hbm, ⟨3, _⟩ => ⟨S1, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S1, .f32⟩
  | .hbm, ⟨41, _⟩ => ⟨S1x1, .f32⟩
  | .hbm, ⟨42, _⟩ => ⟨S131072x512, .f32⟩
  | .hbm, ⟨43, _⟩ => ⟨S_, .f32⟩
  | .hbm, ⟨44, _⟩ => ⟨S1x1, .f32⟩
  | .hbm, ⟨45, _⟩ => ⟨S1x1, .f32⟩
  | .hbm, ⟨46, _⟩ => ⟨S131072x1, .f32⟩
  | .local _ .vmem, ⟨0, _⟩ => ⟨S1x1, .f32⟩
  | .local _ .vmem, ⟨1, _⟩ => ⟨S1x1, .f32⟩
  | .local _ .vmem, ⟨2, _⟩ => ⟨S4096x512, .f32⟩
  | .local _ .vmem, ⟨3, _⟩ => ⟨S4096x512, .f32⟩
  | .local _ .vmem, ⟨4, _⟩ => ⟨S4096x512, .f32⟩
  | .local _ .vmem, ⟨5, _⟩ => ⟨S4096x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1 : S_.BroadcastsInDim S1 (![] : Fin 0 → Fin S1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096x512_S4096x512_0_0 : ∀ a, (![0, 0] : Fin 2 → Nat) a + S4096x512.size a ≤ S4096x512.size a
  h_S4096x512 : 0 < S4096x512.numel
  bcast_S_S1x1 : S_.BroadcastsInDim S1x1 (![] : Fin 0 → Fin S1x1.rank)
  bcast_S1x1_S131072x1_0_1 : S1x1.BroadcastsInDim S131072x1 (![0, 1] : Fin 2 → Fin S131072x1.rank)
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S131072x512.size a
  hwx0_2 : ∀ i : grid0.Coords, EltTy.bits .f32 = 32 ∨ (Rect.block (s := S131072x512) S4096x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S131072x512.size a
  hwx0_3 : ∀ i : grid0.Coords, EltTy.bits .f32 = 32 ∨ (Rect.block (s := S131072x512) S4096x512.size (cc0_transform_3 i) (hinb0_3 i)).WholeWords (EltTy.packing .f32)

variable [Facts₀]

abbrev win0_0 : Pipeline.Window sig grid0 :=
  Pipeline.Window.ofSpec (Memref.whole main_v24) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S1 : Shape := ⟨1, ![1]⟩
abbrev S_ : Shape := ⟨0, ![]⟩
abbrev S1x1 : Shape := ⟨2, ![1, 1]⟩
abbrev S131072x1 : Shape := ⟨2, ![131072, 1]⟩

abbrev nBuf : Space → Nat
  | .hbm => 62
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S1, .f32⟩
  | .hbm, ⟨2, _⟩ => ⟨S_, .f32⟩
  | .hbm, ⟨3, _⟩ => ⟨S1, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1, .f32⟩
  | .hbm, ⟨32, _⟩ => ⟨S1, .f32⟩
  | .hbm, ⟨33, _⟩ => ⟨S1x1, .f32⟩
  | .hbm, ⟨34, _⟩ => ⟨S131072x512, .f32⟩
  | .hbm, ⟨35, _⟩ => ⟨S131072x512, .f32⟩
  | .hbm, ⟨36, _⟩ => ⟨S131072x512, .f32⟩
  | .hbm, ⟨37, _⟩ => ⟨S1x1, .f32⟩
  | .hbm, ⟨38, _⟩ => ⟨S131072x512, .f32⟩
  | .hbm, ⟨39, _⟩ => ⟨S131072x512, .f32⟩
  | .hbm, ⟨40, _⟩ => ⟨S_, .f32⟩
  | .hbm, ⟨41, _⟩ => ⟨S131072x512, .f32⟩
  | .hbm, ⟨42, _⟩ => ⟨S131072x512, .f32⟩
  | .hbm, ⟨43, _⟩ => ⟨S_, .f32⟩
  | .hbm, ⟨44, _⟩ => ⟨S131072x512, .f32⟩
  | .hbm, ⟨45, _⟩ => ⟨S131072x512, .f32⟩
  | .hbm, ⟨46, _⟩ => ⟨S131072x512, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S_, .f32⟩
  | .hbm, ⟨54, _⟩ => ⟨S1, .f32⟩
  | .hbm, ⟨55, _⟩ => ⟨S1, .f32⟩
  | .hbm, ⟨56, _⟩ => ⟨S1, .f32⟩
  | .hbm, ⟨57, _⟩ => ⟨S_, .f32⟩
  | .hbm, ⟨58, _⟩ => ⟨S131072x1, .f32⟩
  | .hbm, ⟨59, _⟩ => ⟨S1x1, .f32⟩
  | .hbm, ⟨60, _⟩ => ⟨S131072x1, .f32⟩
  | .hbm, ⟨61, _⟩ => ⟨S131072x1, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_1 : S1.BroadcastsInDim S1x1 (![1] : Fin 1 → Fin S1x1.rank)
  bcast_S1x1_S131072x512_0_1 : S1x1.BroadcastsInDim S131072x512 (![0, 1] : Fin 2 → Fin S131072x512.rank)
  bcast_S_S131072x512 : S_.BroadcastsInDim S131072x512 (![] : Fin 0 → Fin S131072x512.rank)
  bcast_S_S131072x1 : S_.BroadcastsInDim S131072x1 (![] : Fin 0 → Fin S131072x1.rank)
  bcast_S1x1_S131072x1_0_1 : S1x1.BroadcastsInDim S131072x1 (![0, 1] : Fin 2 → Fin S131072x1.rank)

variable [Facts₀]

class Facts : Prop extends Facts₀ where

variable [Facts]
-- ==== Proof.DriftLaw.lean ====
/-
  The scalar mathematics of the Ornstein–Uhlenbeck drift, on the extended reals.

  With u = 1 - t, the transition mean is m(t) = exp(-u) and the transition variance is
  v(t) = (exp(2u) - 1 + 1/4) * exp(-2u).  One program computes a slope a = 1 - 1/v and a shift b = m/v once and
  returns a*z + b; the other returns z + (-(z - m))/v element by element.  Over the reals with v ≠ 0 both are
  z - z/v + m/v.  The second result is -512 * a on one side and -(512 * (1 - 1/v)) on the other.

  The formulas below keep the float words exactly where the programs have them (every product with the word of 1.0
  included), so that reading either program at an index gives one of these terms literally; the words are evaluated
  once, here.  The law needs v ≠ 0 and real z, t: the quotient by zero is an infinity chosen by the sign of the
  dividend, and the two sides then pick different infinities.
-/
import Idealize.ShloMosaic.PureOps.Ideal
import Idealize.ShloMosaic.Lib.ValueIdx

noncomputable section

namespace Cert.Drift

open Idealize.ShloMosaic

/-! ## The one index of the time array -/

/-- The time is an array of one entry; this is its index. -/
abbrev t0 : (⟨1, ![1]⟩ : Shape).Idx := ValueIdx.ix1 (0 : Fin 1)

/-- An array of one entry has one index. -/
theorem idx1_eq (j : (⟨1, ![1]⟩ : Shape).Idx) : j = t0 := by
  funext d
  match d with
  | ⟨0, _⟩ =>
    apply Fin.ext
    have h : (j 0).val < 1 := (j 0).isLt
    show (j 0).val = 0
    omega

/-! ## The float words the programs spell, as the reals they denote -/

theorem w_one : Ideal.ofBits .f32 0x3F800000#32 = ((1 : ℝ) : EReal) := by
  simp [Ideal.ofBits, Ideal.ieee, -EReal.coe_mul]; norm_num
theorem w_negone : Ideal.ofBits .f32 0xBF800000#32 = ((-1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_negtwo : Ideal.ofBits .f32 0xC0000000#32 = ((-2 : ℝ) : EReal) := by
  simp [Ideal.ofBits, Ideal.ieee, -EReal.coe_mul]; norm_num
theorem w_quarter : Ideal.ofBits .f32 0x3E800000#32 = ((1 / 4 : ℝ) : EReal) := by
  simp [Ideal.ofBits, Ideal.ieee, -EReal.coe_mul]; norm_num
theorem w_512 : Ideal.ofBits .f32 0x44000000#32 = ((512 : ℝ) : EReal) := by
  simp [Ideal.ofBits, Ideal.ieee, -EReal.coe_mul]; norm_num
theorem w_neg512 : Ideal.ofBits .f32 0xC4000000#32 = ((-512 : ℝ) : EReal) := by
  simp [Ideal.ofBits, Ideal.ieee, -EReal.coe_mul]; norm_num
theorem w_zero : Ideal.ofBits .f32 0x00000000#32 = (0 : EReal) := by
  simp [Ideal.ofBits, Ideal.ieee, -EReal.coe_mul]
theorem w_inf : Ideal.ofBits .f32 0x7F800000#32 = (⊤ : EReal) := by
  simp [Ideal.ofBits, Ideal.ieee, -EReal.coe_mul]

/-! ## The programs' element formulas -/

/-- u = 1 - t, the time left. -/
def rem (t : EReal) : EReal := Ideal.ofBits .f32 0x3F800000#32 - t

/-- The transition mean m = exp(-1 * u) * 1. -/
def mean (t : EReal) : EReal :=
  Ideal.exp (Ideal.ofBits .f32 0xBF800000#32 * rem t) * Ideal.ofBits .f32 0x3F800000#32

/-- The transition variance v = ((-1 + exp(2u)) + 1/4) * exp(-2u). -/
def var (t : EReal) : EReal :=
  ((Ideal.ofBits .f32 0xBF800000#32 + Ideal.exp (Ideal.ofBits .f32 0x40000000#32 * rem t)) + Ideal.ofBits .f32 0x3E800000#32)
    * Ideal.exp (Ideal.ofBits .f32 0xC0000000#32 * rem t)

/-- 1 - 1/v. -/
def gain (t : EReal) : EReal := Ideal.ofBits .f32 0x3F800000#32 - Ideal.div (Ideal.ofBits .f32 0x3F800000#32) (var t)

/-- The slope a = 1 * (1 - 1/v). -/
def slope (t : EReal) : EReal := Ideal.ofBits .f32 0x3F800000#32 * gain t

/-- The shift b = (1 * m) / v. -/
def shift (t : EReal) : EReal := Ideal.div (Ideal.ofBits .f32 0x3F800000#32 * mean t) (var t)

/-- The drift as slope and shift: a * z + b. -/
def affineDrift (z t : EReal) : EReal := slope t * z + shift t

/-- The drift as the score: 1 * z + 1 * ((-(z - m)) / v). -/
def scoreDrift (z t : EReal) : EReal :=
  Ideal.ofBits .f32 0x3F800000#32 * z + Ideal.ofBits .f32 0x3F800000#32 * Ideal.div (-(z - mean t)) (var t)

/-- The divergence term from the slope: -512 * a. -/
def slopeTrace (t : EReal) : EReal := Ideal.ofBits .f32 0xC4000000#32 * slope t

/-- The divergence term from the trace: (-(512 * (1 - 1/v))) * 1. -/
def closedTrace (t : EReal) : EReal := (-(Ideal.ofBits .f32 0x44000000#32 * gain t)) * Ideal.ofBits .f32 0x3F800000#32

/-! ## At a real time everything is real -/

theorem rem_coe (t : ℝ) : rem (t : EReal) = ((1 - t : ℝ) : EReal) := by
  rw [rem, w_one, ← EReal.coe_sub]

theorem mean_coe (t : ℝ) : mean (t : EReal) = ((Real.exp (-1 * (1 - t)) * 1 : ℝ) : EReal) := by
  rw [mean, rem_coe, w_negone, w_one, ← EReal.coe_mul, Ideal.exp_coe, ← EReal.coe_mul]

theorem var_coe (t : ℝ) :
    var (t : EReal) = (((-1 + Real.exp (2 * (1 - t)) + 1 / 4) * Real.exp (-2 * (1 - t)) : ℝ) : EReal) := by
  rw [var, rem_coe, w_negone, w_two, w_quarter, w_negtwo, ← EReal.coe_mul, ← EReal.coe_mul, Ideal.exp_coe, Ideal.exp_coe,
    ← EReal.coe_add, ← EReal.coe_add, ← EReal.coe_mul]

/-! ## The law -/

/-- For real z and t with v(t) ≠ 0, slope-and-shift is the score form: both are z - z/v + m/v. -/
theorem affine_eq_score (z t : ℝ) (hv : var (t : EReal) ≠ 0) :
    affineDrift (z : EReal) (t : EReal) = scoreDrift (z : EReal) (t : EReal) := by
  obtain ⟨v, hvE⟩ : ∃ v : ℝ, var (t : EReal) = (v : EReal) := ⟨_, var_coe t⟩
  obtain ⟨μ, hμ⟩ : ∃ μ : ℝ, mean (t : EReal) = (μ : EReal) := ⟨_, mean_coe t⟩
  have hv0 : v ≠ 0 := by
    rintro rfl
    exact hv (by rw [hvE, EReal.coe_zero])
  unfold affineDrift scoreDrift slope shift gain
  rw [hvE, hμ, w_one]
  simp only [Ideal.div_coe hv0]
  simp only [← EReal.coe_mul, ← EReal.coe_sub, ← EReal.coe_add, ← EReal.coe_neg]
  rw [EReal.coe_eq_coe_iff]
  field_simp
  ring

/-- For real t with v(t) ≠ 0 (in fact for any t) the two divergence terms agree: both are -512 * (1 - 1/v). -/
theorem slopeTrace_eq_closedTrace (t : ℝ) (hv : var (t : EReal) ≠ 0) :
    slopeTrace (t : EReal) = closedTrace (t : EReal) := by
  obtain ⟨v, hvE⟩ : ∃ v : ℝ, var (t : EReal) = (v : EReal) := ⟨_, var_coe t⟩
  have hv0 : v ≠ 0 := by
    rintro rfl
    exact hv (by rw [hvE, EReal.coe_zero])
  unfold slopeTrace closedTrace slope gain
  rw [hvE, w_one, w_512, w_neg512]
  simp only [Ideal.div_coe hv0]
  simp only [← EReal.coe_mul, ← EReal.coe_sub, ← EReal.coe_add, ← EReal.coe_neg]
  rw [EReal.coe_eq_coe_iff]
  ring

end Cert.Drift

end
-- ==== Proof.ScoreRead.lean ====
/-
  The score-form program read at an index.

  Its first result at row r, column k is the score form of the drift at z[r, k] and the one time t[0]; its second
  result at row r is the closed-form trace term at t[0].  Every scalar stage (the time left, the mean, the variance)
  is an array of one entry, broadcast to the results' shapes; a broadcast read at an index is its operand read at the
  one index there is.
-/
import proofs.«101885_j8933531976199_2_alg».proof.Proof.Gen.ReferenceIdeal.Read
import proofs.«101885_j8933531976199_2_alg».proof.Proof.DriftLaw

noncomputable section

namespace Cert.Drift.Score

open Cert.ReferenceIdeal Cert.ReferenceIdeal.Read Idealize.ShloMosaic

/-- The stage that holds the mean, at its index. -/
theorem mean_read (x1 : FVec Ideal S1 .f32) (j : S1.Idx) : val_main_v6 (F := Ideal) x1 j = Drift.mean (x1 j) := by
  simp only [val_main_v6_apply, val_main_v4_apply, val_main_v3_apply, val_main_v2_apply, val_main_cst_0_apply,
    val_main_v1_apply, val_main_v0_apply, val_main_cst_apply, val_main_v5_apply, val_main_cst_1_apply]
  simp only [Ideal.mulf_def, Ideal.subf_def, Ideal.hostUnary_exp_def, Ideal.ofBits_def]
  rfl

/-- The stage that holds the variance, at its index. -/
theorem var_read (x1 : FVec Ideal S1 .f32) (j : S1.Idx) : val_main_v21 (F := Ideal) x1 j = Drift.var (x1 j) := by
  simp only [val_main_v21_apply, val_main_v15_apply, val_main_v13_apply, val_main_v12_apply, val_main_cst_4_apply,
    val_main_v11_apply, val_main_v10_apply, val_main_v9_apply, val_main_cst_3_apply, val_main_v8_apply, val_main_v7_apply,
    val_main_cst_2_apply, val_main_v14_apply, val_main_cst_5_apply, val_main_v20_apply, val_main_v19_apply,
    val_main_v18_apply, val_main_cst_7_apply, val_main_v17_apply, val_main_v16_apply, val_main_cst_6_apply]
  simp only [Ideal.mulf_def, Ideal.subf_def, Ideal.addf_def, Ideal.hostUnary_exp_def, Ideal.ofBits_def]
  rfl

/-- The first result at an index: the score form of the drift at that entry of z and the one time. -/
theorem drift_read (x0 : FVec Ideal S131072x512 .f32) (x1 : FVec Ideal S1 .f32) (i : S131072x512.Idx) :
    val_main_v33 (F := Ideal) x0 x1 i = Drift.scoreDrift (x0 i) (x1 Drift.t0) := by
  simp only [val_main_v33_apply, val_main_v30_apply, val_main_v29_apply, val_main_cst_8_apply, val_main_v32_apply,
    val_main_v31_apply, val_main_cst_9_apply, val_main_v28_apply, val_main_v25_apply, val_main_v24_apply,
    val_main_v23_apply, val_main_v22_apply, val_main_v27_apply, val_main_v26_apply, mean_read, var_read]
  simp only [Ideal.mulf_def, Ideal.subf_def, Ideal.addf_def, Ideal.hostNegf_def, Ideal.negf_def, Ideal.hostDivf_def,
    Ideal.ofBits_def]
  rw [Drift.idx1_eq (idx_main_v22 _), Drift.idx1_eq (idx_main_v26 _)]
  rfl

/-- The second result at an index: the closed-form trace term at the one time. -/
theorem trace_read (x1 : FVec Ideal S1 .f32) (i : S131072x1.Idx) :
    val_main_v44 (F := Ideal) x1 i = Drift.closedTrace (x1 Drift.t0) := by
  simp only [val_main_v44_apply, val_main_v43_apply, val_main_v42_apply, val_main_v40_apply, val_main_v39_apply,
    val_main_v38_apply, val_main_cst_12_apply, val_main_v37_apply, val_main_v36_apply, val_main_cst_11_apply,
    val_main_v35_apply, val_main_v34_apply, val_main_cst_10_apply, val_main_v41_apply, val_main_cst_13_apply, var_read]
  simp only [Ideal.mulf_def, Ideal.subf_def, Ideal.hostNegf_def, Ideal.negf_def, Ideal.hostDivf_def, Ideal.ofBits_def]
  rw [Drift.idx1_eq (idx_main_v42 _)]
  rfl

end Cert.Drift.Score

end
-- ==== Proof.Domain.lean ====
/-
  The precondition, decoded.

  The precondition is the conjunction of three reductions by "and" over comparison arrays: |z| < +inf at every entry,
  |t| < +inf, and v(t) ≠ 0 where v is the variance computed from t by the same operations, in the same order, as in
  both programs.  A reduction by "and" that came out true was true at every entry; |x| < +inf on the extended reals
  says x is a real number; and the variance term of the precondition is the variance formula of the law, literally.
-/
import proofs.«101885_j8933531976199_2_alg».proof.Pre_finite_inputs
import proofs.«101885_j8933531976199_2_alg».proof.Proof.DriftLaw
import Idealize.ShloMosaic.Lib.ReduceAll

noncomputable section

namespace Cert.Drift.Domain

open Idealize.ShloMosaic Cert.Pre_finite_inputs

/-- The scalar shape has one index. -/
instance : Subsingleton S_.Idx := ⟨fun a b => funext fun d => d.elim0⟩

theorem ofBool_eq_one (b : Bool) : BitVec.ofBool b = 1#1 ↔ b = true := by cases b <;> decide

/-- The comparison "less than" on the extended reals, as a bit. -/
theorem cmp_olt_iff (x y : EReal) : Ideal.cmp .olt x y = 1#1 ↔ x < y := by
  show BitVec.ofBool (decide (x < y)) = 1#1 ↔ _
  rw [ofBool_eq_one, decide_eq_true_eq]

/-- The comparison "not equal" on the extended reals, as a bit. -/
theorem cmp_une_iff (x y : EReal) : Ideal.cmp .une x y = 1#1 ↔ x ≠ y := by
  show BitVec.ofBool (decide (x ≠ y)) = 1#1 ↔ _
  rw [ofBool_eq_one, decide_eq_true_eq]

/-- An extended real whose absolute value max(x, -x) is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

variable [Facts]

/-- Under the precondition every entry of z is real, the time is real, and the variance at the time is not zero. -/
theorem decode (z : FVec Ideal S131072x512 .f32) (t : FVec Ideal S1 .f32)
    (h : fn (F := Ideal) z t = fun _ => 1#1) :
    (∀ i, ∃ r : ℝ, z i = (r : EReal)) ∧ (∃ r : ℝ, t Drift.t0 = (r : EReal)) ∧ Drift.var (t Drift.t0) ≠ 0 := by
  have e := congrFun h ValueIdx.ix0
  unfold fn fn_part1 at e
  dsimp only [andi] at e
  rw [IntOp.andi_eq_one, IntOp.andi_eq_one] at e
  obtain ⟨⟨hz, ht⟩, hv⟩ := e
  refine ⟨fun i => ?_, ?_, ?_⟩
  · have hi := Host.reduce_andi_all _ _ _ _ _ hz i
    have hi' : Ideal.cmp .olt (max (z i) (-(z i))) (Ideal.ofBits .f32 0x7F800000#32) = 1#1 := hi
    rw [Drift.w_inf, cmp_olt_iff] at hi'
    exact real_of_abs_lt_top _ hi'
  · have hi := Host.reduce_andi_all _ _ _ _ _ ht Drift.t0
    have hi' : Ideal.cmp .olt (max (t Drift.t0) (-(t Drift.t0))) (Ideal.ofBits .f32 0x7F800000#32) = 1#1 := hi
    rw [Drift.w_inf, cmp_olt_iff] at hi'
    exact real_of_abs_lt_top _ hi'
  · have hi := Host.reduce_andi_all _ _ _ _ _ hv Drift.t0
    have hi' : Ideal.cmp .une (Drift.var (t Drift.t0)) (Ideal.ofBits .f32 0x00000000#32) = 1#1 := hi
    rw [Drift.w_zero, cmp_une_iff] at hi'
    exact hi'

end Cert.Drift.Domain

end
-- ==== Proof.AffineValue.lean ====
/-
  The slope-and-shift program's two results, as functions of its arguments.

  Before the grid runs, the host computes the slope a = 1 * (1 - 1/v) and the shift b = (1 * m)/v from the time and
  stores each as a 1 x 1 array.  The grid has 32 points; point p reads both 1 x 1 arrays whole and rows
  4096 p .. 4096 p + 4095 of z (all 512 columns), and writes a * z + b to the same rows of the first result.  The 32
  row bands are disjoint and together are all 131072 rows, so the first result ends holding a * z[r, k] + b at every
  (r, k).  After the grid the host multiplies the slope array by -512 and broadcasts it down 131072 rows: the second
  result.  Neither argument is written.
-/
import proofs.«101885_j8933531976199_2_alg».proof.Proof.Gen.KernelIdeal.Frame
import proofs.«101885_j8933531976199_2_alg».proof.Proof.DriftLaw
import Idealize.ShloMosaic.Lib.Pipeline.Value
import Idealize.ShloMosaic.Lib.StableHlo.Run

set_option maxRecDepth 16384

noncomputable section

namespace Cert.Drift.Affine

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The slope and the shift as the grid finds them -/

/-- A 1-entry array and a 1 x 1 array each have one row-major position. -/
theorem one_idx (y : S1x1.Idx) : (S1.rowMajor Drift.t0).val = (S1x1.rowMajor y).val := by
  have h1 := (S1.rowMajor Drift.t0).isLt
  have h2 := (S1x1.rowMajor y).isLt
  have e1 : S1.numel = 1 := by decide
  have e2 : S1x1.numel = 1 := by decide
  omega

set_option maxHeartbeats 2000000 in
/-- The 1 x 1 slope array, at its entry, is the slope formula at the time. -/
theorem V_slope (c : Dev nD) (y : S1x1.Idx) :
    V m c main_v24 y = Drift.slope (m ((c : Thread nD τ).loc main_arg1) Drift.t0) := by
  show StableHlo.after hostOps0 (fun b => m (c, b)) (Proc.devRef .tc main_v24) y = _
  after_results_simp
  refine (shapeCast_apply _ _ y Drift.t0 (one_idx y)).trans ?_
  rfl

set_option maxHeartbeats 2000000 in
/-- The 1 x 1 shift array, at its entry, is the shift formula at the time. -/
theorem V_shift (c : Dev nD) (y : S1x1.Idx) :
    V m c main_v28 y = Drift.shift (m ((c : Thread nD τ).loc main_arg1) Drift.t0) := by
  show StableHlo.after hostOps0 (fun b => m (c, b)) (Proc.devRef .tc main_v28) y = _
  after_results_simp
  refine (shapeCast_apply _ _ y Drift.t0 (one_idx y)).trans ?_
  rfl

/-! ## One grid point -/

theorem hz : (![0, 0] : Fin 2 → Nat) = fun _ => 0 := funext fun a => by fin_cases a <;> rfl

/-- What a point stores, at an entry of its band: (the slope block's entry) * (the z block's entry) + (the shift
    block's entry). -/
theorem pay_apply (x0 x1 : Vec Ideal S1x1 .f32) (x2 : Vec Ideal S4096x512 .f32) (j : S4096x512.Idx) :
    k0_pay1 x0 x1 x2 j
      = x0 (fun a => ⟨![0, 0] a, inpos_S1x1_p0_0 a⟩) * x2 j + x1 (fun a => ⟨![0, 0] a, inpos_S1x1_p0_0 a⟩) := rfl

/-- Point p reads and writes the same band: block (p, 0) of z and of the result. -/
theorem band_facts : ∀ t : Fin cfg0.N, win0_2.index t (0 : Fin 2) = win0_3.index t (0 : Fin 2)
    ∧ win0_2.index t (1 : Fin 2) = win0_3.index t (1 : Fin 2)
    ∧ win0_3.index t (0 : Fin 2) = t.val ∧ win0_3.index t (1 : Fin 2) = 0 :=
  (by decide +kernel : ∀ t : Fin grid0.N, _)

/-- The first result: a * z[r, k] + b at every entry. -/
def drift (c : Dev nD) : S131072x512.Idx → EReal := fun i =>
  Drift.affineDrift (m ((c : Thread nD τ).loc main_arg0) i) (m ((c : Thread nD τ).loc main_arg1) Drift.t0)

/-- What point p writes back is band p of `drift`. -/
theorem flushed_eq (c : Dev nD) (t : Fin cfg0.N) :
    (dats m 0 c).flushed 3 t = ((cfg0.win 3).blk t).view.read (Elt Ideal) (drift m c) := by
  show (cfg0.win 3).cut (grid0.coords t) ((dats m 0 c).after 3 t) = _
  rw [after0_3]
  unfold out0_3
  rw [View.canon_unit_zero hz]
  simp only [View.ld_unit_zero (S := S4096x512) hz, View.ld_unit_zero (S := S1x1) hz]
  obtain ⟨e0, e1, e2, e3⟩ := band_facts t
  funext j
  show FloatOps.addf (F := Ideal) (φ := .f32)
      (FloatOps.mulf (F := Ideal) (φ := .f32) (V m c main_v24 (((cfg0.win 0).blk t).view.emb (fun a => ⟨![0, 0] a, inpos_S1x1_p0_0 a⟩))) (V m c main_arg0 (((cfg0.win 2).blk t).view.emb j)))
      (V m c main_v28 (((cfg0.win 1).blk t).view.emb (fun a => ⟨![0, 0] a, inpos_S1x1_p0_0 a⟩)))
    = Drift.affineDrift (m ((c : Thread nD τ).loc main_arg0) (((cfg0.win 3).blk t).view.emb j)) (m ((c : Thread nD τ).loc main_arg1) Drift.t0)
  rw [V_slope, V_shift, V_main_arg0]
  have h2 : ((cfg0.win 2).blk t).view.emb j = ((cfg0.win 3).blk t).view.emb j := by
    funext a; apply Fin.ext
    match a with
    | ⟨0, _⟩ => show win0_2.index t (0 : Fin 2) * 4096 + 1 * (j 0).val = win0_3.index t (0 : Fin 2) * 4096 + 1 * (j 0).val; omega
    | ⟨1, _⟩ => show win0_2.index t (1 : Fin 2) * 512 + 1 * (j 1).val = win0_3.index t (1 : Fin 2) * 512 + 1 * (j 1).val; omega
  rw [h2]
  rfl

/-! ## The 32 bands are the whole array -/

/-- An entry is in point p's band iff each coordinate is in the band's range on its axis. -/
theorem mem_band (t : Fin cfg0.N) (i : S131072x512.Idx) :
    i ∈ ((cfg0.win 3).blk t).view.set ↔ ∀ a : Fin 2, win0_3.index t a * S4096x512.size a ≤ (i a).val ∧ (i a).val < win0_3.index t a * S4096x512.size a + S4096x512.size a := by
  show i ∈ ((View.whole main_v29).slice (win0_3.rect t)).set ↔ _
  rw [View.set_slice_whole, Rect.mem_set_unit]
  exact Iff.rfl

/-- Row r is in the band of point r / 4096. -/
theorem bands_cover (i : S131072x512.Idx) : ∃ t : Fin cfg0.N, (cfg0.win 3).flush t = true ∧ i ∈ ((cfg0.win 3).blk t).view.set := by
  have hi0 : (i 0).val < 131072 := (i 0).isLt
  have hi1 : (i 1).val < 512 := (i 1).isLt
  have hN : cfg0.N = 32 := N_0
  obtain ⟨t, ht⟩ : ∃ t : Fin cfg0.N, t.val = (i 0).val / 4096 := ⟨⟨(i 0).val / 4096, by omega⟩, rfl⟩
  obtain ⟨e0, e1, e2, e3⟩ := band_facts t
  refine ⟨t, flush0_3 t, ?_⟩
  rw [mem_band]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 512 ≤ (i 1).val ∧ (i 1).val < win0_3.index t (1 : Fin 2) * 512 + 512; omega

/-- The first result's array after the grid is `drift`. -/
theorem drift_final (c : Dev nD) : (dats m 0 c).arrAt 3 cfg0.N = drift m c :=
  (dats m 0 c).arrAt_eq_of_cover 3 (drift m c) (fun t _ => flushed_eq m c t) bands_cover

/-! ## The second result -/

/-- The second result: -512 * a in every row. -/
def trace (c : Dev nD) : S131072x1.Idx → EReal := fun _ =>
  Drift.slopeTrace (m ((c : Thread nD τ).loc main_arg1) Drift.t0)

/-- The grid only reads the slope array: after it, the array still holds the slope. -/
theorem slope_kept (c : Dev nD) (y : S1x1.Idx) :
    Pipeline.withArrays spec0 c (V0 m c) (fun w => (dats m 0 c).arrAt w cfg0.N) (Proc.devRef .tc main_v24) y
      = Drift.slope (m ((c : Thread nD τ).loc main_arg1) Drift.t0) := by
  have h : Pipeline.withArrays spec0 c (V0 m c) (fun w => (dats m 0 c).arrAt w cfg0.N) (Proc.devRef .tc main_v24) = (dats m 0 c).arrAt 0 cfg0.N :=
    Pipeline.withArrays_arr spec0 launch0.win.arr_inj c (V0 m c) (fun w => (dats m 0 c).arrAt w cfg0.N) 0
  rw [h, (dats m 0 c).arrAt_in 0 rfl _, A_eq]
  exact V_slope m c y

/-- The host's last lines leave -512 * a in every row of the second result. -/
theorem trace_final (c : Dev nD) (i : S131072x1.Idx) :
    Pipeline.afterTail₀ cfgs (dats m) 0 (V0 m) [hostOps1] c main_v32 i = trace m c i := by
  unfold Pipeline.afterTail₀
  show StableHlo.after hostOps1 _ (Proc.devRef .tc main_v32) i = _
  after_results
  show FloatOps.mulf (F := Ideal) (φ := .f32) (FloatOps.ofBits .f32 0xC4000000#32)
      (Pipeline.withArrays spec0 c (V0 m c) (fun w => (dats m 0 c).arrAt w cfg0.N) (Proc.devRef .tc main_v24) _) = _
  rw [slope_kept]
  rfl

/-! ## The run -/

/-- Every weakly fair execution ends with the first result at `drift`, the second at `trace`, the arguments as
    launched. -/
theorem run : θ_run defs (onTc (τ := τ) (main (F := Ideal))) ⟨m, fun _ => 0, ρ⟩ fun r => ∀ c : Dev nD,
      r.2.mem ((c.tc : Thread nD τ).loc main_v29) = drift m c
      ∧ r.2.mem ((c.tc : Thread nD τ).loc main_v32) = trace m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 3).trans (drift_final m c),
      ((h c).2 main_v32 (Pipeline.mem_restRefs_of main_v32 (by decide) (by decide))).trans (funext fun i => trace_final m c i),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c)⟩)
    (run_main m ρ)

end Cert.Drift.Affine

end
-- ==== Proof.lean ====
/-
  The proof of `Cert.Claim`: the slope-and-shift program and the score-form program compute the same
  Ornstein–Uhlenbeck drift and the same divergence term, as extended reals, whenever z and t are real and the
  transition variance v(t) is not zero.

  The first program's results are a * z + b and -512 * a with a = 1 - 1/v and b = m/v (Proof/AffineValue.lean); the
  second's are z + (-(z - m))/v and -(512 * (1 - 1/v)) (Proof/ScoreRead.lean).  The precondition gives real z, real t
  and v(t) ≠ 0 (Proof/Domain.lean), and then both pairs agree by field arithmetic (Proof/DriftLaw.lean).  At v = 0 the
  two programs really differ (a quotient by zero is an infinity whose sign is the dividend's, and m/v and (m - z)/v
  need not have one sign), which is why the precondition names v.

  The three frames are the generated ones (the score-form program's is its generated run with the results dropped);
  the idealization rewrote no operation, so `preserves` is `True`.
-/
import proofs.«101885_j8933531976199_2_alg».proof.Defs
import proofs.«101885_j8933531976199_2_alg».proof.Proof.Gen.Kernel
import proofs.«101885_j8933531976199_2_alg».proof.Proof.Gen.Kernel.Skeleton
import proofs.«101885_j8933531976199_2_alg».proof.Proof.Gen.Kernel.Launch
import proofs.«101885_j8933531976199_2_alg».proof.Proof.Gen.Kernel.Points
import proofs.«101885_j8933531976199_2_alg».proof.Proof.Gen.Kernel.Frame
import proofs.«101885_j8933531976199_2_alg».proof.Proof.Gen.KernelIdeal
import proofs.«101885_j8933531976199_2_alg».proof.Proof.Gen.KernelIdeal.Skeleton
import proofs.«101885_j8933531976199_2_alg».proof.Proof.Gen.KernelIdeal.Launch
import proofs.«101885_j8933531976199_2_alg».proof.Proof.Gen.KernelIdeal.Points
import proofs.«101885_j8933531976199_2_alg».proof.Proof.Gen.KernelIdeal.Frame
import proofs.«101885_j8933531976199_2_alg».proof.Proof.Gen.ReferenceIdeal
import proofs.«101885_j8933531976199_2_alg».proof.Proof.Gen.Pre_finite_inputs
import proofs.«101885_j8933531976199_2_alg».proof.Proof.Gen.ReferenceIdeal.Run
import proofs.«101885_j8933531976199_2_alg».proof.Proof.Gen.ReferenceIdeal.Read
import proofs.«101885_j8933531976199_2_alg».proof.Proof.DriftLaw
import proofs.«101885_j8933531976199_2_alg».proof.Proof.ScoreRead
import proofs.«101885_j8933531976199_2_alg».proof.Proof.Domain
import proofs.«101885_j8933531976199_2_alg».proof.Proof.AffineValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

theorem preserves : Cert.preserves_Kernel_KernelIdeal := trivial

/-- From memories that agree on z and t, with z and t real and v(t) ≠ 0: both programs end with the drift
    a * z + b = z + (-(z - m))/v in the first result and -512 * a = -(512 * (1 - 1/v)) in the second. -/
theorem algebraic : Cert.algebraic_KernelIdeal_ReferenceIdeal := by
  intro m ρ m' ρ' hpre hagree
  refine ⟨fun c => Cert.Drift.Affine.drift m c, fun c => Cert.Drift.Affine.trace m c, Cert.Drift.Affine.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · obtain ⟨hz, ⟨τ', hτ⟩, hv⟩ := Cert.Drift.Domain.decode _ _ (hpre c)
    rw [Cert.ReferenceIdeal.Read.val_main_v33_eq, (hagree c).1, (hagree c).2]
    funext i
    obtain ⟨ζ, hζ⟩ := hz i
    rw [Cert.Drift.Score.drift_read]
    show _ = Cert.Drift.affineDrift _ _
    rw [hτ] at hv
    rw [hζ, hτ]
    exact (Cert.Drift.affine_eq_score ζ τ' hv).symm
  · obtain ⟨hz, ⟨τ', hτ⟩, hv⟩ := Cert.Drift.Domain.decode _ _ (hpre c)
    rw [Cert.ReferenceIdeal.Read.val_main_v44_eq, (hagree c).2]
    funext i
    rw [Cert.Drift.Score.trace_read]
    show _ = Cert.Drift.slopeTrace _
    rw [hτ] at hv
    rw [hτ]
    exact (Cert.Drift.slopeTrace_eq_closedTrace τ' hv).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
